-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v104)) (v1 : (c : Dev Cert.KernelIdeal.nD) → Buf (Elt Ideal) ((c.tc : Thread Cert.KernelIdeal.nD Cert.KernelIdeal.τ).loc Cert.KernelIdeal.main_v124)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104) = v0 c
          ∧ r.2.mem ((c.tc : Thread Cert.KernelIdeal.nD Cert.KernelIdeal.τ).loc Cert.KernelIdeal.main_v124) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_v123) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x320000 : Shape := ⟨2, ![2, 320000]⟩
abbrev S256x64 : Shape := ⟨2, ![256, 64]⟩
abbrev S64 : Shape := ⟨1, ![64]⟩
abbrev S64x64 : Shape := ⟨2, ![64, 64]⟩
abbrev S64x256 : Shape := ⟨2, ![64, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  main_v53

def fn_part2 {F : FTy → Type} [FloatOps F] (main_arg8 : FVec F S64x256 .f32) (main_arg9 : FVec F S256 .f32) (main_arg10 : FVec F S64x256 .f32) (main_arg11 : FVec F S256 .f32) (main_v33 : IVec S_ 1) : IVec S_ 1 :=
  let main_v34 : FVec F S64x256 .f32 := Host.absf main_arg8
  let main_cst_12 : FVec F S_ .f32 := constant S_ .f32 0x7F800000#32
  let main_v35 : FVec F S64x256 .f32 := broadcastInDim S64x256 ![] bcast_S_S64x256 main_cst_12
  let main_v36 : IVec S64x256 1 := cmpf .olt main_v34 main_v35
  let main_c_13 : IVec S_ 1 := constantI S_ 1 1#1
  let main_v37 : IVec S_ 1 := (fun x v => Host.reduce IntOp.andi x v reducesTo_S64x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S64x256 .f32 := Host.absf main_arg10
  let main_cst_16 : FVec F S_ .f32 := constant S_ .f32 0x7F800000#32
  let main_v45 : FVec F S64x256 .f32 := broadcastInDim S64x256 ![] bcast_S_S64x256 main_cst_16
  let main_v46 : IVec S64x256 1 := cmpf .olt main_v44 main_v45
  let main_c_17 : IVec S_ 1 := constantI S_ 1 1#1
  let main_v47 : IVec S_ 1 := (fun x v => Host.reduce IntOp.andi x v reducesTo_S64x256_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_v48 main_v49 main_v50

def fn_part1 {F : FTy → Type} [FloatOps F] (main_arg5 : FVec F S64 .f32) (main_arg6 : FVec F S64x64 .f32) (main_arg7 : FVec F S64 .f32) (main_arg8 : FVec F S64x256 .f32) (main_arg9 : FVec F S256 .f32) (main_arg10 : FVec F S64x256 .f32) (main_arg11 : FVec F S256 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S10000x256 .f32) (main_arg1 : IVec S2x320000 32) (main_arg2 : FVec F S256x64 .f32) (main_arg3 : FVec F S64 .f32) (main_arg4 : FVec F S64x64 .f32) (main_arg5 : FVec F S64 .f32) (main_arg6 : FVec F S64x64 .f32) (main_arg7 : FVec F S64 .f32) (main_arg8 : FVec F S64x256 .f32) (main_arg9 : FVec F S256 .f32) (main_arg10 : FVec F S64x256 .f32) (main_arg11 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_v13 main_v16
-- ==== Kernel.lean ====
abbrev S10000x256 : Shape := ⟨2, ![10000, 256]⟩
abbrev S2x320000 : Shape := ⟨2, ![2, 320000]⟩
abbrev S256x64 : Shape := ⟨2, ![256, 64]⟩
abbrev S64 : Shape := ⟨1, ![64]⟩
abbrev S64x64 : Shape := ⟨2, ![64, 64]⟩
abbrev S64x256 : Shape := ⟨2, ![64, 256]⟩
abbrev S256 : Shape := ⟨1, ![256]⟩
abbrev S1x320000 : Shape := ⟨2, ![1, 320000]⟩
abbrev S320000 : Shape := ⟨1, ![320000]⟩
abbrev S_ : Shape := ⟨0, ![]⟩
abbrev S10000 : Shape := ⟨1, ![10000]⟩
abbrev S330000 : Shape := ⟨1, ![330000]⟩
abbrev S330000x1 : Shape := ⟨2, ![330000, 1]⟩
abbrev S10000x64 : Shape := ⟨2, ![10000, 64]⟩
abbrev S330000x64 : Shape := ⟨2, ![330000, 64]⟩
abbrev S1x64 : Shape := ⟨2, ![1, 64]⟩
abbrev S330000x256 : Shape := ⟨2, ![330000, 256]⟩
abbrev S1x256 : Shape := ⟨2, ![1, 256]⟩
abbrev S256x10000 : Shape := ⟨2, ![256, 10000]⟩
abbrev S10000x10000 : Shape := ⟨2, ![10000, 10000]⟩
abbrev S2048x256 : Shape := ⟨2, ![2048, 256]⟩
abbrev S256x1024 : Shape := ⟨2, ![256, 1024]⟩
abbrev S2048x1024 : Shape := ⟨2, ![2048, 1024]⟩

abbrev nBuf : Space → Nat
  | .hbm => 170
  | .vmem => 6
  | .smem => 0
  | _ => 0

abbrev hbmTy0_0 (i : Nat) : BufTy := match i % 128 with
  | 0 => ⟨S10000x256, .f32⟩
  | 1 => ⟨S2x320000, .i32⟩
  | 2 => ⟨S256x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x256, .f32⟩
  | 9 => ⟨S256, .f32⟩
  | 10 => ⟨S64x256, .f32⟩
  | 11 => ⟨S256, .f32⟩
  | 12 => ⟨S1x320000, .i32⟩
  | 13 => ⟨S320000, .i32⟩
  | 14 => ⟨S1x320000, .i32⟩
  | 15 => ⟨S320000, .i32⟩
  | 16 => ⟨S320000, .i1⟩
  | 17 => ⟨S_, .f32⟩
  | 18 => ⟨S_, .f32⟩
  | 19 => ⟨S320000, .f32⟩
  | 20 => ⟨S320000, .f32⟩
  | 21 => ⟨S320000, .f32⟩
  | 22 => ⟨S320000, .f32⟩
  | 23 => ⟨S10000, .i32⟩
  | 24 => ⟨S330000, .i32⟩
  | 25 => ⟨S330000, .i32⟩
  | 26 => ⟨S_, .f32⟩
  | 27 => ⟨S10000, .f32⟩
  | 28 => ⟨S330000, .f32⟩
  | 29 => ⟨S_, .f32⟩
  | 30 => ⟨S10000, .f32⟩
  | 31 => ⟨S330000x1, .i32⟩
  | 32 => ⟨S10000, .f32⟩
  | 33 => ⟨S_, .f32⟩
  | 34 => ⟨S10000, .f32⟩
  | 35 => ⟨S10000, .i1⟩
  | 36 => ⟨S10000, .f32⟩
  | 37 => ⟨S_, .f32⟩
  | 38 => ⟨S_, .f32⟩
  | 39 => ⟨S10000, .f32⟩
  | 40 => ⟨S10000, .f32⟩
  | 41 => ⟨S_, .i32⟩
  | 42 => ⟨S330000, .i32⟩
  | 43 => ⟨S330000, .i1⟩
  | 44 => ⟨S_, .i32⟩
  | 45 => ⟨S330000, .i32⟩
  | 46 => ⟨S330000, .i32⟩
  | 47 => ⟨S330000, .i32⟩
  | 48 => ⟨S330000x1, .i32⟩
  | 49 => ⟨S330000, .f32⟩
  | 50 => ⟨S330000, .f32⟩
  | 51 => ⟨S_, .i32⟩
  | 52 => ⟨S330000, .i32⟩
  | 53 => ⟨S330000, .i1⟩
  | 54 => ⟨S_, .i32⟩
  | 55 => ⟨S330000, .i32⟩
  | 56 => ⟨S330000, .i32⟩
  | 57 => ⟨S330000, .i32⟩
  | 58 => ⟨S330000x1, .i32⟩
  | 59 => ⟨S330000, .f32⟩
  | 60 => ⟨S330000, .f32⟩
  | 61 => ⟨S10000x64, .f32⟩
  | 62 => ⟨S_, .i32⟩
  | 63 => ⟨S330000, .i32⟩
  | 64 => ⟨S330000, .i1⟩
  | 65 => ⟨S_, .i32⟩
  | 66 => ⟨S330000, .i32⟩
  | 67 => ⟨S330000, .i32⟩
  | 68 => ⟨S330000, .i32⟩
  | 69 => ⟨S330000x1, .i32⟩
  | 70 => ⟨S330000x64, .f32⟩
  | 71 => ⟨S330000x1, .f32⟩
  | 72 => ⟨S330000x64, .f32⟩
  | 73 => ⟨S330000x64, .f32⟩
  | 74 => ⟨S_, .f32⟩
  | 75 => ⟨S10000x64, .f32⟩
  | 76 => ⟨S330000x1, .i32⟩
  | 77 => ⟨S10000x64, .f32⟩
  | 78 => ⟨S1x64, .f32⟩
  | 79 => ⟨S10000x64, .f32⟩
  | 80 => ⟨S10000x64, .f32⟩
  | 81 => ⟨S_, .f32⟩
  | 82 => ⟨S10000x64, .f32⟩
  | 83 => ⟨S10000x64, .f32⟩
  | 84 => ⟨S10000x64, .f32⟩
  | 85 => ⟨S_, .i32⟩
  | 86 => ⟨S330000, .i32⟩
  | 87 => ⟨S330000, .i1⟩
  | 88 => ⟨S_, .i32⟩
  | 89 => ⟨S330000, .i32⟩
  | 90 => ⟨S330000, .i32⟩
  | 91 => ⟨S330000, .i32⟩
  | 92 => ⟨S330000x1, .i32⟩
  | 93 => ⟨S330000x64, .f32⟩
  | 94 => ⟨S330000x1, .f32⟩
  | 95 => ⟨S330000x64, .f32⟩
  | 96 => ⟨S330000x64, .f32⟩
  | 97 => ⟨S_, .f32⟩
  | 98 => ⟨S10000x64, .f32⟩
  | 99 => ⟨S330000x1, .i32⟩
  | 100 => ⟨S10000x64, .f32⟩
  | 101 => ⟨S1x64, .f32⟩
  | 102 => ⟨S10000x64, .f32⟩
  | 103 => ⟨S10000x64, .f32⟩
  | 104 => ⟨S10000x64, .f32⟩
  | 105 => ⟨S_, .i32⟩
  | 106 => ⟨S330000, .i32⟩
  | 107 => ⟨S330000, .i1⟩
  | 108 => ⟨S_, .i32⟩
  | 109 => ⟨S330000, .i32⟩
  | 110 => ⟨S330000, .i32⟩
  | 111 => ⟨S330000, .i32⟩
  | 112 => ⟨S330000x1, .i32⟩
  | 113 => ⟨S330000x64, .f32⟩
  | 114 => ⟨S330000x1, .f32⟩
  | 115 => ⟨S330000x64, .f32⟩
  | 116 => ⟨S330000x64, .f32⟩
  | 117 => ⟨S_, .f32⟩
  | 118 => ⟨S10000x64, .f32⟩
  | 119 => ⟨S330000x1, .i32⟩
  | 120 => ⟨S10000x64, .f32⟩
  | 121 => ⟨S1x64, .f32⟩
  | 122 => ⟨S10000x64, .f32⟩
  | 123 => ⟨S10000x64, .f32⟩
  | 124 => ⟨S_, .f32⟩
  | 125 => ⟨S10000x64, .f32⟩
  | 126 => ⟨S10000x64, .f32⟩
  | 127 => ⟨S10000x256, .f32⟩
  | _ => ⟨S10000x256, .f32⟩

abbrev hbmTy0_1 (i : Nat) : BufTy := match i % 128 with
  | 0 => ⟨S_, .i32⟩
  | 1 => ⟨S330000, .i32⟩
  | 2 => ⟨S330000, .i1⟩
  | 3 => ⟨S_, .i32⟩
  | 4 => ⟨S330000, .i32⟩
  | 5 => ⟨S330000, .i32⟩
  | 6 => ⟨S330000, .i32⟩
  | 7 => ⟨S330000x1, .i32⟩
  | 8 => ⟨S330000x256, .f32⟩
  | 9 => ⟨S330000x1, .f32⟩
  | 10 => ⟨S330000x256, .f32⟩
  | 11 => ⟨S330000x256, .f32⟩
  | 12 => ⟨S_, .f32⟩
  | 13 => ⟨S10000x256, .f32⟩
  | 14 => ⟨S330000x1, .i32⟩
  | 15 => ⟨S10000x256, .f32⟩
  | 16 => ⟨S1x256, .f32⟩
  | 17 => ⟨S10000x256, .f32⟩
  | 18 => ⟨S10000x256, .f32⟩
  | 19 => ⟨S10000x256, .f32⟩
  | 20 => ⟨S_, .i32⟩
  | 21 => ⟨S330000, .i32⟩
  | 22 => ⟨S330000, .i1⟩
  | 23 => ⟨S_, .i32⟩
  | 24 => ⟨S330000, .i32⟩
  | 25 => ⟨S330000, .i32⟩
  | 26 => ⟨S330000, .i32⟩
  | 27 => ⟨S330000x1, .i32⟩
  | 28 => ⟨S330000x256, .f32⟩
  | 29 => ⟨S330000x1, .f32⟩
  | 30 => ⟨S330000x256, .f32⟩
  | 31 => ⟨S330000x256, .f32⟩
  | 32 => ⟨S_, .f32⟩
  | 33 => ⟨S10000x256, .f32⟩
  | 34 => ⟨S330000x1, .i32⟩
  | 35 => ⟨S10000x256, .f32⟩
  | 36 => ⟨S1x256, .f32⟩
  | 37 => ⟨S10000x256, .f32⟩
  | 38 => ⟨S10000x256, .f32⟩
  | 39 => ⟨S10000x256, .bf16⟩
  | 40 => ⟨S256x10000, .bf16⟩
  | 41 => ⟨S10000x10000, .f32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | .local _ .vmem, ⟨0, _⟩ => ⟨S2048x256, .bf16⟩
  | .local _ .vmem, ⟨1, _⟩ => ⟨S2048x256, .bf16⟩
  | .local _ .vmem, ⟨2, _⟩ => ⟨S256x1024, .bf16⟩
  | .local _ .vmem, ⟨3, _⟩ => ⟨S256x1024, .bf16⟩
  | .local _ .vmem, ⟨4, _⟩ => ⟨S2048x1024, .f32⟩
  | .local _ .vmem, ⟨5, _⟩ => ⟨S2048x1024, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_4 : Ref sig .tc := ⟨.hbm, 37, rfl⟩
abbrev main_call1_v0 : Ref sig .tc := ⟨.hbm, 38, rfl⟩
abbrev main_call1_v1 : Ref sig .tc := ⟨.hbm, 39, rfl⟩
abbrev main_v18 : Ref sig .tc := ⟨.hbm, 40, rfl⟩
abbrev main_c : Ref sig .tc := ⟨.hbm, 41, rfl⟩
abbrev main_v19 : Ref sig .tc := ⟨.hbm, 42, rfl⟩
abbrev main_v20 : Ref sig .tc := ⟨.hbm, 43, rfl⟩
abbrev main_c_5 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_6 : Ref sig .tc := ⟨.hbm, 51, rfl⟩
abbrev main_v27 : Ref sig .tc := ⟨.hbm, 52, rfl⟩
abbrev main_v28 : Ref sig .tc := ⟨.hbm, 53, rfl⟩
abbrev main_c_7 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_8 : Ref sig .tc := ⟨.hbm, 62, rfl⟩
abbrev main_v36 : Ref sig .tc := ⟨.hbm, 63, rfl⟩
abbrev main_v37 : Ref sig .tc := ⟨.hbm, 64, rfl⟩
abbrev main_c_9 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_10 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_call2_cst : Ref sig .tc := ⟨.hbm, 81, rfl⟩
abbrev main_call2_v0 : Ref sig .tc := ⟨.hbm, 82, rfl⟩
abbrev main_v52 : Ref sig .tc := ⟨.hbm, 83, rfl⟩
abbrev main_v53 : Ref sig .tc := ⟨.hbm, 84, rfl⟩
abbrev main_c_11 : Ref sig .tc := ⟨.hbm, 85, rfl⟩
abbrev main_v54 : Ref sig .tc := ⟨.hbm, 86, rfl⟩
abbrev main_v55 : Ref sig .tc := ⟨.hbm, 87, rfl⟩
abbrev main_c_12 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_13 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_c_14 : Ref sig .tc := ⟨.hbm, 105, rfl⟩
abbrev main_v71 : Ref sig .tc := ⟨.hbm, 106, rfl⟩
abbrev main_v72 : Ref sig .tc := ⟨.hbm, 107, rfl⟩
abbrev main_c_15 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_16 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_call3_cst : Ref sig .tc := ⟨.hbm, 124, rfl⟩
abbrev main_call3_v0 : Ref sig .tc := ⟨.hbm, 125, rfl⟩
abbrev main_v87 : Ref sig .tc := ⟨.hbm, 126, rfl⟩
abbrev main_v88 : Ref sig .tc := ⟨.hbm, 127, rfl⟩
abbrev main_c_17 : Ref sig .tc := ⟨.hbm, 128, rfl⟩
abbrev main_v89 : Ref sig .tc := ⟨.hbm, 129, rfl⟩
abbrev main_v90 : Ref sig .tc := ⟨.hbm, 130, rfl⟩
abbrev main_c_18 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_19 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_c_20 : Ref sig .tc := ⟨.hbm, 148, rfl⟩
abbrev main_v106 : Ref sig .tc := ⟨.hbm, 149, rfl⟩
abbrev main_v107 : Ref sig .tc := ⟨.hbm, 150, rfl⟩
abbrev main_c_21 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_cst_22 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  concatenates_S320000_S10000_S330000_d0 : Shape.Concatenates [S320000, S10000] S330000 0
  bcast_S_S10000 : S_.BroadcastsInDim S10000 (![] : Fin 0 → Fin S10000.rank)
  bcast_S330000_S330000x1_0 : S330000.BroadcastsInDim S330000x1 (![0] : Fin 1 → Fin S330000x1.rank)
  bcast_S_S330000 : S_.BroadcastsInDim S330000 (![] : Fin 0 → Fin S330000.rank)
  bcast_S330000x1_S330000x64_0_1 : S330000x1.BroadcastsInDim S330000x64 (![0, 1] : Fin 2 → Fin S330000x64.rank)
  bcast_S_S10000x64 : S_.BroadcastsInDim S10000x64 (![] : Fin 0 → Fin S10000x64.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S330000x1_S330000x256_0_1 : S330000x1.BroadcastsInDim S330000x256 (![0, 1] : Fin 2 → Fin S330000x256.rank)
  bcast_S_S10000x256 : S_.BroadcastsInDim S10000x256 (![] : Fin 0 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bitsLt_bf16_f32 : FTy.bits .bf16 < FTy.bits .f32
  transposes_S10000x256_S256x10000_1_0 : S10000x256.Transposes [1, 0] S256x10000
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S2048x1024_S2048x1024_0_0 : ∀ a, (![0, 0] : Fin 2 → Nat) a + S2048x1024.size a ≤ S2048x1024.size a
  h_S2048x1024 : 0 < S2048x1024.numel
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  dot_S10000x256_S256x64_S10000x64_1_0_0_1_n_n_wf : DotDims.WF S10000x256 S256x64 S10000x64 [1] [0] [0] [1] [] []
  gather_S10000x64_S330000x1_S330000x64_1_0_n_n_0_1_164_wf : GatherDims.WF S10000x64 S330000x1 S330000x64 [1] [0] [] [0] [] 1 ![1, 64]
  scatter_S10000x64_S330000x1_S330000x64_1_0_0_1_wf : ScatterDims.WF S10000x64 S330000x1 S330000x64 [1] [0] [0] 1
  dot_S10000x64_S64x64_S10000x64_1_0_0_1_n_n_wf : DotDims.WF S10000x64 S64x64 S10000x64 [1] [0] [0] [1] [] []
  dot_S10000x64_S64x256_S10000x256_1_0_0_1_n_n_wf : DotDims.WF S10000x64 S64x256 S10000x256 [1] [0] [0] [1] [] []
  gather_S10000x256_S330000x1_S330000x256_1_0_n_n_0_1_1256_wf : GatherDims.WF S10000x256 S330000x1 S330000x256 [1] [0] [] [0] [] 1 ![1, 256]
  scatter_S10000x256_S330000x1_S330000x256_1_0_0_1_wf : ScatterDims.WF S10000x256 S330000x1 S330000x256 [1] [0] [0] 1
  dot_S2048x256_S256x1024_S2048x1024_1_0_0_1_n_n_wf : DotDims.WF S2048x256 S256x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S2048x256.size a < S10000x256.size a
  hwx0_0 : ∀ i : grid0.Coords, EltTy.bits .bf16 = 32 ∨ (Rect.unit (s := S10000x256) (fun a => cc0_transform_0 i a * S2048x256.size a) (fun a => (Pipeline.Clip.of (cc0_transform_0 i a) (S2048x256.size a) (S10000x256.size a)).extent (S2048x256.size a)) fun a => Pipeline.Clip.inb (Pipeline.Clip.ok_of (hstart0_0 i a))).WholeWords (EltTy.packing .bf16)
  hwxs0_0 : ∀ i : grid0.Coords, EltTy.bits .bf16 = 32 ∨ (Rect.unit (s := S2048x256) (fun _ => 0) (fun a => (Pipeline.Clip.of (cc0_transform_0 i a) (S2048x256.size a) (S10000x256.size a)).extent (S2048x256.size a)) fun a => (Nat.zero_add _).trans_le (Pipeline.Clip.extent_le (Pipeline.Clip.ok_of (hstart0_0 i a)))).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S256x1024.size a < S256x10000.size a
  hwx0_1 : ∀ i : grid0.Coords, EltTy.bits .bf16 = 32 ∨ (Rect.unit (s := S256x10000) (fun a => cc0_transform_1 i a * S256x1024.size a) (fun a => (Pipeline.Clip.of (cc0_transform_1 i a) (S256x1024.size a) (S256x10000.size a)).extent (S256x1024.size a)) fun a => Pipeline.Clip.inb (Pipeline.Clip.ok_of (hstart0_1 i a))).WholeWords (EltTy.packing .bf16)
  hwxs0_1 : ∀ i : grid0.Coords, EltTy.bits .bf16 = 32 ∨ (Rect.unit (s := S256x1024) (fun _ => 0) (fun a => (Pipeline.Clip.of (cc0_transform_1 i a) (S256x1024.size a) (S256x10000.size a)).extent (S256x1024.size a)) fun a => (Nat.zero_add _).trans_le (Pipeline.Clip.extent_le (Pipeline.Clip.ok_of (hstart0_1 i a)))).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S2048x1024.size a < S10000x10000.size a
  hwx0_2 : ∀ i : grid0.Coords, EltTy.bits .f32 = 32 ∨ (Rect.unit (s := S10000x10000) (fun a => cc0_transform_2 i a * S2048x1024.size a) (fun a => (Pipeline.Clip.of (cc0_transform_2 i a) (S2048x1024.size a) (S10000x10000.size a)).extent (S2048x1024.size a)) fun a => Pipeline.Clip.inb (Pipeline.Clip.ok_of (hstart0_2 i a))).WholeWords (EltTy.packing .f32)
  hwxs0_2 : ∀ i : grid0.Coords, EltTy.bits .f32 = 32 ∨ (Rect.unit (s := S2048x1024) (fun _ => 0) (fun a => (Pipeline.Clip.of (cc0_transform_2 i a) (S2048x1024.size a) (S10000x10000.size a)).extent (S2048x1024.size a)) fun a => (Nat.zero_add _).trans_le (Pipeline.Clip.extent_le (Pipeline.Clip.ok_of (hstart0_2 i a)))).WholeWords (EltTy.packing .f32)

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf
def gather_S10000x64_S330000x1_S330000x64_1_0_n_n_0_1_164 : GatherDims S10000x64 S330000x1 S330000x64 where
  offsetDims := [1]
  collapsedSliceDims := [0]
  operandBatchingDims := []
  startIndicesBatchingDims := []
  startIndexMap := [0]
  indexVectorDim := 1
  sliceSizes := ![1, 64]
  wf := gather_S10000x64_S330000x1_S330000x64_1_0_n_n_0_1_164_wf
def scatter_S10000x64_S330000x1_S330000x64_1_0_0_1 : ScatterDims S10000x64 S330000x1 S330000x64 where
  updateWindowDims := [1]
  insertedWindowDims := [0]
  scatterDimsToOperandDims := [0]
  indexVectorDim := 1
  wf := scatter_S10000x64_S330000x1_S330000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x256_S10000x256_1_0_0_1_n_n : DotDims S10000x64 S64x256 S10000x256 where
  lhsContracting := [1]
  rhsContracting := [0]
  lhsNonContracting := [0]
  rhsNonContracting := [1]
  lhsBatch := []
  rhsBatch := []
  wf := dot_S10000x64_S64x256_S10000x256_1_0_0_1_n_n_wf
def gather_S10000x256_S330000x1_S330000x256_1_0_n_n_0_1_1256 : GatherDims S10000x256 S330000x1 S330000x256 where
  offsetDims := [1]
  collapsedSliceDims := [0]
  operandBatchingDims := []
  startIndicesBatchingDims := []
  startIndexMap := [0]
  indexVectorDim := 1
  sliceSizes := ![1, 256]
  wf := gather_S10000x256_S330000x1_S330000x256_1_0_n_n_0_1_1256_wf
def scatter_S10000x256_S330000x1_S330000x256_1_0_0_1 : ScatterDims S10000x256 S330000x1 S330000x256 where
  updateWindowDims := [1]
  insertedWindowDims := [0]
  scatterDimsToOperandDims := [0]
  indexVectorDim := 1
  wf := scatter_S10000x256_S330000x1_S330000x256_1_0_0_1_wf
def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf

abbrev win0_0 : Pipeline.Window sig grid0 :=
  Pipeline.Window.ofSpecClip (Memref.whole main_v122) S2048x256.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v123) S256x1024.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v124) S2048x1024.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S10000x256 : Shape := ⟨2, ![10000, 256]⟩
abbrev S2x320000 : Shape := ⟨2, ![2, 320000]⟩
abbrev S256x64 : Shape := ⟨2, ![256, 64]⟩
abbrev S64 : Shape := ⟨1, ![64]⟩
abbrev S64x64 : Shape := ⟨2, ![64, 64]⟩
abbrev S64x256 : Shape := ⟨2, ![64, 256]⟩
abbrev S256 : Shape := ⟨1, ![256]⟩
abbrev S1x320000 : Shape := ⟨2, ![1, 320000]⟩
abbrev S320000 : Shape := ⟨1, ![320000]⟩
abbrev S_ : Shape := ⟨0, ![]⟩
abbrev S10000 : Shape := ⟨1, ![10000]⟩
abbrev S330000 : Shape := ⟨1, ![330000]⟩
abbrev S330000x1 : Shape := ⟨2, ![330000, 1]⟩
abbrev S10000x64 : Shape := ⟨2, ![10000, 64]⟩
abbrev S330000x64 : Shape := ⟨2, ![330000, 64]⟩
abbrev S1x64 : Shape := ⟨2, ![1, 64]⟩
abbrev S330000x256 : Shape := ⟨2, ![330000, 256]⟩
abbrev S1x256 : Shape := ⟨2, ![1, 256]⟩
abbrev S256x10000 : Shape := ⟨2, ![256, 10000]⟩
abbrev S10000x10000 : Shape := ⟨2, ![10000, 10000]⟩

abbrev nBuf : Space → Nat
  | .hbm => 169
  | .vmem => 0
  | .smem => 0
  | _ => 0

abbrev hbmTy0_0 (i : Nat) : BufTy := match i % 128 with
  | 0 => ⟨S10000x256, .f32⟩
  | 1 => ⟨S2x320000, .i32⟩
  | 2 => ⟨S256x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x256, .f32⟩
  | 9 => ⟨S256, .f32⟩
  | 10 => ⟨S64x256, .f32⟩
  | 11 => ⟨S256, .f32⟩
  | 12 => ⟨S1x320000, .i32⟩
  | 13 => ⟨S320000, .i32⟩
  | 14 => ⟨S1x320000, .i32⟩
  | 15 => ⟨S320000, .i32⟩
  | 16 => ⟨S320000, .i1⟩
  | 17 => ⟨S_, .f32⟩
  | 18 => ⟨S_, .f32⟩
  | 19 => ⟨S320000, .f32⟩
  | 20 => ⟨S320000, .f32⟩
  | 21 => ⟨S320000, .f32⟩
  | 22 => ⟨S320000, .f32⟩
  | 23 => ⟨S10000, .i32⟩
  | 24 => ⟨S330000, .i32⟩
  | 25 => ⟨S330000, .i32⟩
  | 26 => ⟨S_, .f32⟩
  | 27 => ⟨S10000, .f32⟩
  | 28 => ⟨S330000, .f32⟩
  | 29 => ⟨S_, .f32⟩
  | 30 => ⟨S10000, .f32⟩
  | 31 => ⟨S330000x1, .i32⟩
  | 32 => ⟨S10000, .f32⟩
  | 33 => ⟨S_, .f32⟩
  | 34 => ⟨S10000, .f32⟩
  | 35 => ⟨S10000, .i1⟩
  | 36 => ⟨S10000, .f32⟩
  | 37 => ⟨S_, .f32⟩
  | 38 => ⟨S_, .f32⟩
  | 39 => ⟨S10000, .f32⟩
  | 40 => ⟨S10000, .f32⟩
  | 41 => ⟨S_, .i32⟩
  | 42 => ⟨S330000, .i32⟩
  | 43 => ⟨S330000, .i1⟩
  | 44 => ⟨S_, .i32⟩
  | 45 => ⟨S330000, .i32⟩
  | 46 => ⟨S330000, .i32⟩
  | 47 => ⟨S330000, .i32⟩
  | 48 => ⟨S330000x1, .i32⟩
  | 49 => ⟨S330000, .f32⟩
  | 50 => ⟨S330000, .f32⟩
  | 51 => ⟨S_, .i32⟩
  | 52 => ⟨S330000, .i32⟩
  | 53 => ⟨S330000, .i1⟩
  | 54 => ⟨S_, .i32⟩
  | 55 => ⟨S330000, .i32⟩
  | 56 => ⟨S330000, .i32⟩
  | 57 => ⟨S330000, .i32⟩
  | 58 => ⟨S330000x1, .i32⟩
  | 59 => ⟨S330000, .f32⟩
  | 60 => ⟨S330000, .f32⟩
  | 61 => ⟨S10000x64, .f32⟩
  | 62 => ⟨S_, .i32⟩
  | 63 => ⟨S330000, .i32⟩
  | 64 => ⟨S330000, .i1⟩
  | 65 => ⟨S_, .i32⟩
  | 66 => ⟨S330000, .i32⟩
  | 67 => ⟨S330000, .i32⟩
  | 68 => ⟨S330000, .i32⟩
  | 69 => ⟨S330000x1, .i32⟩
  | 70 => ⟨S330000x64, .f32⟩
  | 71 => ⟨S330000x1, .f32⟩
  | 72 => ⟨S330000x64, .f32⟩
  | 73 => ⟨S330000x64, .f32⟩
  | 74 => ⟨S_, .f32⟩
  | 75 => ⟨S10000x64, .f32⟩
  | 76 => ⟨S330000x1, .i32⟩
  | 77 => ⟨S10000x64, .f32⟩
  | 78 => ⟨S1x64, .f32⟩
  | 79 => ⟨S10000x64, .f32⟩
  | 80 => ⟨S10000x64, .f32⟩
  | 81 => ⟨S_, .f32⟩
  | 82 => ⟨S10000x64, .f32⟩
  | 83 => ⟨S10000x64, .f32⟩
  | 84 => ⟨S10000x64, .f32⟩
  | 85 => ⟨S_, .i32⟩
  | 86 => ⟨S330000, .i32⟩
  | 87 => ⟨S330000, .i1⟩
  | 88 => ⟨S_, .i32⟩
  | 89 => ⟨S330000, .i32⟩
  | 90 => ⟨S330000, .i32⟩
  | 91 => ⟨S330000, .i32⟩
  | 92 => ⟨S330000x1, .i32⟩
  | 93 => ⟨S330000x64, .f32⟩
  | 94 => ⟨S330000x1, .f32⟩
  | 95 => ⟨S330000x64, .f32⟩
  | 96 => ⟨S330000x64, .f32⟩
  | 97 => ⟨S_, .f32⟩
  | 98 => ⟨S10000x64, .f32⟩
  | 99 => ⟨S330000x1, .i32⟩
  | 100 => ⟨S10000x64, .f32⟩
  | 101 => ⟨S1x64, .f32⟩
  | 102 => ⟨S10000x64, .f32⟩
  | 103 => ⟨S10000x64, .f32⟩
  | 104 => ⟨S10000x64, .f32⟩
  | 105 => ⟨S_, .i32⟩
  | 106 => ⟨S330000, .i32⟩
  | 107 => ⟨S330000, .i1⟩
  | 108 => ⟨S_, .i32⟩
  | 109 => ⟨S330000, .i32⟩
  | 110 => ⟨S330000, .i32⟩
  | 111 => ⟨S330000, .i32⟩
  | 112 => ⟨S330000x1, .i32⟩
  | 113 => ⟨S330000x64, .f32⟩
  | 114 => ⟨S330000x1, .f32⟩
  | 115 => ⟨S330000x64, .f32⟩
  | 116 => ⟨S330000x64, .f32⟩
  | 117 => ⟨S_, .f32⟩
  | 118 => ⟨S10000x64, .f32⟩
  | 119 => ⟨S330000x1, .i32⟩
  | 120 => ⟨S10000x64, .f32⟩
  | 121 => ⟨S1x64, .f32⟩
  | 122 => ⟨S10000x64, .f32⟩
  | 123 => ⟨S10000x64, .f32⟩
  | 124 => ⟨S_, .f32⟩
  | 125 => ⟨S10000x64, .f32⟩
  | 126 => ⟨S10000x64, .f32⟩
  | 127 => ⟨S10000x256, .f32⟩
  | _ => ⟨S10000x256, .f32⟩

abbrev hbmTy0_1 (i : Nat) : BufTy := match i % 128 with
  | 0 => ⟨S_, .i32⟩
  | 1 => ⟨S330000, .i32⟩
  | 2 => ⟨S330000, .i1⟩
  | 3 => ⟨S_, .i32⟩
  | 4 => ⟨S330000, .i32⟩
  | 5 => ⟨S330000, .i32⟩
  | 6 => ⟨S330000, .i32⟩
  | 7 => ⟨S330000x1, .i32⟩
  | 8 => ⟨S330000x256, .f32⟩
  | 9 => ⟨S330000x1, .f32⟩
  | 10 => ⟨S330000x256, .f32⟩
  | 11 => ⟨S330000x256, .f32⟩
  | 12 => ⟨S_, .f32⟩
  | 13 => ⟨S10000x256, .f32⟩
  | 14 => ⟨S330000x1, .i32⟩
  | 15 => ⟨S10000x256, .f32⟩
  | 16 => ⟨S1x256, .f32⟩
  | 17 => ⟨S10000x256, .f32⟩
  | 18 => ⟨S10000x256, .f32⟩
  | 19 => ⟨S10000x256, .f32⟩
  | 20 => ⟨S_, .i32⟩
  | 21 => ⟨S330000, .i32⟩
  | 22 => ⟨S330000, .i1⟩
  | 23 => ⟨S_, .i32⟩
  | 24 => ⟨S330000, .i32⟩
  | 25 => ⟨S330000, .i32⟩
  | 26 => ⟨S330000, .i32⟩
  | 27 => ⟨S330000x1, .i32⟩
  | 28 => ⟨S330000x256, .f32⟩
  | 29 => ⟨S330000x1, .f32⟩
  | 30 => ⟨S330000x256, .f32⟩
  | 31 => ⟨S330000x256, .f32⟩
  | 32 => ⟨S_, .f32⟩
  | 33 => ⟨S10000x256, .f32⟩
  | 34 => ⟨S330000x1, .i32⟩
  | 35 => ⟨S10000x256, .f32⟩
  | 36 => ⟨S1x256, .f32⟩
  | 37 => ⟨S10000x256, .f32⟩
  | 38 => ⟨S10000x256, .f32⟩
  | 39 => ⟨S256x10000, .f32⟩
  | 40 => ⟨S10000x10000, .f32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_4 : Ref sig .tc := ⟨.hbm, 37, rfl⟩
abbrev main_call1_v0 : Ref sig .tc := ⟨.hbm, 38, rfl⟩
abbrev main_call1_v1 : Ref sig .tc := ⟨.hbm, 39, rfl⟩
abbrev main_v18 : Ref sig .tc := ⟨.hbm, 40, rfl⟩
abbrev main_c : Ref sig .tc := ⟨.hbm, 41, rfl⟩
abbrev main_v19 : Ref sig .tc := ⟨.hbm, 42, rfl⟩
abbrev main_v20 : Ref sig .tc := ⟨.hbm, 43, rfl⟩
abbrev main_c_5 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_6 : Ref sig .tc := ⟨.hbm, 51, rfl⟩
abbrev main_v27 : Ref sig .tc := ⟨.hbm, 52, rfl⟩
abbrev main_v28 : Ref sig .tc := ⟨.hbm, 53, rfl⟩
abbrev main_c_7 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_8 : Ref sig .tc := ⟨.hbm, 62, rfl⟩
abbrev main_v36 : Ref sig .tc := ⟨.hbm, 63, rfl⟩
abbrev main_v37 : Ref sig .tc := ⟨.hbm, 64, rfl⟩
abbrev main_c_9 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_10 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_call2_cst : Ref sig .tc := ⟨.hbm, 81, rfl⟩
abbrev main_call2_v0 : Ref sig .tc := ⟨.hbm, 82, rfl⟩
abbrev main_v52 : Ref sig .tc := ⟨.hbm, 83, rfl⟩
abbrev main_v53 : Ref sig .tc := ⟨.hbm, 84, rfl⟩
abbrev main_c_11 : Ref sig .tc := ⟨.hbm, 85, rfl⟩
abbrev main_v54 : Ref sig .tc := ⟨.hbm, 86, rfl⟩
abbrev main_v55 : Ref sig .tc := ⟨.hbm, 87, rfl⟩
abbrev main_c_12 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_13 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_c_14 : Ref sig .tc := ⟨.hbm, 105, rfl⟩
abbrev main_v71 : Ref sig .tc := ⟨.hbm, 106, rfl⟩
abbrev main_v72 : Ref sig .tc := ⟨.hbm, 107, rfl⟩
abbrev main_c_15 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_16 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_call3_cst : Ref sig .tc := ⟨.hbm, 124, rfl⟩
abbrev main_call3_v0 : Ref sig .tc := ⟨.hbm, 125, rfl⟩
abbrev main_v87 : Ref sig .tc := ⟨.hbm, 126, rfl⟩
abbrev main_v88 : Ref sig .tc := ⟨.hbm, 127, rfl⟩
abbrev main_c_17 : Ref sig .tc := ⟨.hbm, 128, rfl⟩
abbrev main_v89 : Ref sig .tc := ⟨.hbm, 129, rfl⟩
abbrev main_v90 : Ref sig .tc := ⟨.hbm, 130, rfl⟩
abbrev main_c_18 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_19 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_c_20 : Ref sig .tc := ⟨.hbm, 148, rfl⟩
abbrev main_v106 : Ref sig .tc := ⟨.hbm, 149, rfl⟩
abbrev main_v107 : Ref sig .tc := ⟨.hbm, 150, rfl⟩
abbrev main_c_21 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_cst_22 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  concatenates_S320000_S10000_S330000_d0 : Shape.Concatenates [S320000, S10000] S330000 0
  bcast_S_S10000 : S_.BroadcastsInDim S10000 (![] : Fin 0 → Fin S10000.rank)
  bcast_S330000_S330000x1_0 : S330000.BroadcastsInDim S330000x1 (![0] : Fin 1 → Fin S330000x1.rank)
  bcast_S_S330000 : S_.BroadcastsInDim S330000 (![] : Fin 0 → Fin S330000.rank)
  bcast_S330000x1_S330000x64_0_1 : S330000x1.BroadcastsInDim S330000x64 (![0, 1] : Fin 2 → Fin S330000x64.rank)
  bcast_S_S10000x64 : S_.BroadcastsInDim S10000x64 (![] : Fin 0 → Fin S10000x64.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S330000x1_S330000x256_0_1 : S330000x1.BroadcastsInDim S330000x256 (![0, 1] : Fin 2 → Fin S330000x256.rank)
  bcast_S_S10000x256 : S_.BroadcastsInDim S10000x256 (![] : Fin 0 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  transposes_S10000x256_S256x10000_1_0 : S10000x256.Transposes [1, 0] S256x10000
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  dot_S10000x256_S256x64_S10000x64_1_0_0_1_n_n_wf : DotDims.WF S10000x256 S256x64 S10000x64 [1] [0] [0] [1] [] []
  gather_S10000x64_S330000x1_S330000x64_1_0_n_n_0_1_164_wf : GatherDims.WF S10000x64 S330000x1 S330000x64 [1] [0] [] [0] [] 1 ![1, 64]
  scatter_S10000x64_S330000x1_S330000x64_1_0_0_1_wf : ScatterDims.WF S10000x64 S330000x1 S330000x64 [1] [0] [0] 1
  dot_S10000x64_S64x64_S10000x64_1_0_0_1_n_n_wf : DotDims.WF S10000x64 S64x64 S10000x64 [1] [0] [0] [1] [] []
  dot_S10000x64_S64x256_S10000x256_1_0_0_1_n_n_wf : DotDims.WF S10000x64 S64x256 S10000x256 [1] [0] [0] [1] [] []
  gather_S10000x256_S330000x1_S330000x256_1_0_n_n_0_1_1256_wf : GatherDims.WF S10000x256 S330000x1 S330000x256 [1] [0] [] [0] [] 1 ![1, 256]
  scatter_S10000x256_S330000x1_S330000x256_1_0_0_1_wf : ScatterDims.WF S10000x256 S330000x1 S330000x256 [1] [0] [0] 1
  dot_S10000x256_S256x10000_S10000x10000_1_0_0_1_n_n_wf : DotDims.WF S10000x256 S256x10000 S10000x10000 [1] [0] [0] [1] [] []

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf
def gather_S10000x64_S330000x1_S330000x64_1_0_n_n_0_1_164 : GatherDims S10000x64 S330000x1 S330000x64 where
  offsetDims := [1]
  collapsedSliceDims := [0]
  operandBatchingDims := []
  startIndicesBatchingDims := []
  startIndexMap := [0]
  indexVectorDim := 1
  sliceSizes := ![1, 64]
  wf := gather_S10000x64_S330000x1_S330000x64_1_0_n_n_0_1_164_wf
def scatter_S10000x64_S330000x1_S330000x64_1_0_0_1 : ScatterDims S10000x64 S330000x1 S330000x64 where
  updateWindowDims := [1]
  insertedWindowDims := [0]
  scatterDimsToOperandDims := [0]
  indexVectorDim := 1
  wf := scatter_S10000x64_S330000x1_S330000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x256_S10000x256_1_0_0_1_n_n : DotDims S10000x64 S64x256 S10000x256 where
  lhsContracting := [1]
  rhsContracting := [0]
  lhsNonContracting := [0]
  rhsNonContracting := [1]
  lhsBatch := []
  rhsBatch := []
  wf := dot_S10000x64_S64x256_S10000x256_1_0_0_1_n_n_wf
def gather_S10000x256_S330000x1_S330000x256_1_0_n_n_0_1_1256 : GatherDims S10000x256 S330000x1 S330000x256 where
  offsetDims := [1]
  collapsedSliceDims := [0]
  operandBatchingDims := []
  startIndicesBatchingDims := []
  startIndexMap := [0]
  indexVectorDim := 1
  sliceSizes := ![1, 256]
  wf := gather_S10000x256_S330000x1_S330000x256_1_0_n_n_0_1_1256_wf
def scatter_S10000x256_S330000x1_S330000x256_1_0_0_1 : ScatterDims S10000x256 S330000x1 S330000x256 where
  updateWindowDims := [1]
  insertedWindowDims := [0]
  scatterDimsToOperandDims := [0]
  indexVectorDim := 1
  wf := scatter_S10000x256_S330000x1_S330000x256_1_0_0_1_wf
def dot_S10000x256_S256x10000_S10000x10000_1_0_0_1_n_n : DotDims S10000x256 S256x10000 S10000x10000 where
  lhsContracting := [1]
  rhsContracting := [0]
  lhsNonContracting := [0]
  rhsNonContracting := [1]
  lhsBatch := []
  rhsBatch := []
  wf := dot_S10000x256_S256x10000_S10000x10000_1_0_0_1_n_n_wf

class Facts : Prop extends Facts₀ where

variable [Facts]
-- ==== Proof.KernelBody.lean ====
/-
  The frame of `Kernel`, generic in the float instance.

  The one pallas_call computes an outer product block by block on a 5 × 10 grid: at a point it loads the whole
  staging buffer of a [2048, 256] block of rows of the left matrix and the whole staging buffer of a [256, 1024]
  block of columns of the right matrix, multiplies them into a zero accumulator, and stores the [2048, 1024] product
  over the whole staging buffer of the result's block. 10000 is not a multiple of 2048 or of 1024, so the last
  block on each axis overhangs its array, and the rows (columns) of a staging buffer past the array's end hold
  words nothing names.

  For the frame nothing needs to be known of what the buffers hold: the body's loads and its store are whole-buffer
  accesses, which are memory-safe at any contents. So the proof data here forget all three windows: each staging
  buffer is handed to the body at arbitrary contents and taken back at arbitrary contents. The argument arrays are
  no window's array (the windows stage results of host operations), so they end as the region found them, which is
  as launched.
-/
import proofs.«111913_j19567871001158_2_alg».proof.Proof.Gen.Kernel.Frame
import proofs.«111913_j19567871001158_2_alg».proof.Proof.Gen.Kernel.Skeleton
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-! ## The body's triple -/

/-- The zero offsets, as the printed accesses spell them. -/
theorem zero_offsets : (![0, 0] : Fin 2 → Nat) = fun _ => 0 := funext fun a => by fin_cases a <;> rfl

/-- The whole-buffer rectangle of the result's staging buffer. -/
abbrev wholeOut : Rect S2048x1024 := Rect.unit (s := S2048x1024) ![0, 0] S2048x1024.size inb_S2048x1024_S2048x1024_0_0

/-- The body on whole staging memrefs: the two operand buffers at read contents `x0`, `x1` and the result's at
    anything run to the operand buffers as they were and the result's buffer at the product payload of `x0` and `x1`
    (two whole loads, a dead whole load of the result's buffer, one whole store). -/
theorem sound_kernel (c : Dev nD) (E : Set ℕ) (i : grid0.Coords)
    (arg2 : Memref sig .tc .vmem S2048x256 .bf16) (harg2 : arg2.IsWhole)
    (arg3 : Memref sig .tc .vmem S256x1024 .bf16) (harg3 : arg3.IsWhole)
    (arg4 : Memref sig .tc .vmem S2048x1024 .f32) (harg4 : arg4.IsWhole)
    (x0 : Vec F S2048x256 .bf16) (x1 : Vec F S256x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (k0_pay1 x0 x1)) -∗ K ⟨⟩))
      ⊢ wp frame (wpE (defs₀ (F := F)) Variants.none c none) E (cc0__outer_product_kernel i arg2 harg2 arg3 harg3 arg4 harg4) K := by
  simp only [cc0__outer_product_kernel_eq_skeleton]; unfold cc0__outer_product_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  -- the one whole store covers the buffer, so what it left reads as its payload; the whole loads read the contents
  refine (View.read_writes_eq_canon _ _ _ (fun y => ⟨_, List.mem_singleton_self _, View.mem_set_unit_zero zero_offsets inb_S2048x1024_S2048x1024_0_0 y⟩)).trans ?_
  rw [View.canon_unit_zero zero_offsets]
  show k0_pay1 (View.ld (arg2.view.read (Elt F) f0) (Rect.unit (s := S2048x256) ![0, 0] S2048x256.size inb_S2048x256_S2048x256_0_0))
      (View.ld (arg3.view.read (Elt F) f1) (Rect.unit (s := S256x1024) ![0, 0] S256x1024.size inb_S256x1024_S256x1024_0_0)) = _
  rw [View.ld_unit_zero zero_offsets, View.ld_unit_zero zero_offsets]

/-! ## The proof data, every window forgotten -/

variable (m : (ℓ : Loc nD τ sig) → Buf (Elt F) ℓ) (ρ : Dev nD → PrngReg)

/-- The proof data of the one pipeline on core `c`: the arrays as the region finds them; what the body leaves is
    not named (every window is forgotten below); the class's invariant; nothing owed; full shares. -/
def dats (_ : Fin 1) (c : Dev nD) : Dat τ (Elt F) Unit ℕ (UR sig nD τ) ℕ cfg0 c where
  A w := V m c (Pipeline.arrRef spec0 w)
  after w t := Pipeline.Dat.unnamed w t
  Φ _ := Pipeline.ΦA spec0 c
  q _ := fullShare
  owed _ := 0

theorem A_eq (c : Dev nD) (w : Fin cfg0.W) : (dats m 0 c).A w = V m c (Pipeline.arrRef spec0 w) := by
  dsimp only [dats]

/-- Every window forgotten. -/
abbrev allForgotten : Fin cfg0.W → Bool := fun _ => true

/-- What the body is called with at point `t`: the invariant, what the core owes, and each window's current
    staging buffer at some contents; -/
def bodyPre (c : Dev nD) (t : Fin cfg0.N) : sProp 𝕄 :=
  iprop((dats m 0 c).Φ t.castSucc ∗ (dats m 0 c).owesAt () t.castSucc
    ∗ (∃ X, owns (c : Thread nD τ) (st0_0 t) fullShare X)
    ∗ (∃ X, owns (c : Thread nD τ) (st0_1 t) fullShare X)
    ∗ (∃ X, owns (c : Thread nD τ) (st0_2 t) fullShare X))

/-- and what it returns: the same. -/
def bodyPost (c : Dev nD) (t : Fin cfg0.N) : sProp 𝕄 :=
  iprop((dats m 0 c).Φ t.succ ∗ (dats m 0 c).owesAt () t.succ
    ∗ (∃ X, owns (c : Thread nD τ) (st0_0 t) fullShare X)
    ∗ (∃ X, owns (c : Thread nD τ) (st0_1 t) fullShare X)
    ∗ (∃ X, owns (c : Thread nD τ) (st0_2 t) fullShare X))

/-- The body at any point, from buffers at any contents to buffers at some contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, Ho, ⟨%X0, H0⟩, ⟨%X1, H1⟩, ⟨%X2, H2⟩⟩
  iapply (sound_kernel c Set.univ (grid0.coords t) _ _ _ _ _ _ X0 X1 _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexists _; iexact H0
  isplitl [H1]; · iexists _; iexact H1
  iexists _; iexact H2

/-- The library's body obligation with every window forgotten. -/
theorem body_obligation (c : Dev nD) :
    BodyObligationLoose (dats (F := F) m 0 c) (defs₀ (F := F)) Variants.none () Set.univ allForgotten := fun t => by
  rw [bigSep_W0]
  exact sound_body m c t

/-! ## The run and the frame -/

set_option backward.isDefEq.respectTransparency.types false in
/-- Every weakly fair execution of @main terminates, nothing faulting, and every unscoped buffer that is no window's
    array ends as the region found it. -/
theorem run_main : θ_run defs (onTc (τ := τ) (main (F := F))) (s₀ m ρ)
    (RDat.FramePost cfg0 (fun c => (dats m 0 c).toRForget allForgotten) (V m)) :=
  RDat.θ_run_frame cfgs (0 : Fin 1) launch0 defs₀ Variants.none (fun c => (dats m 0 c).toRForget allForgotten) m ρ main
    (hbody := fun c => (body_obligation m c).toRForget) (hshare := fun c => ((dats m 0 c).toRForget allForgotten).share_full fun _ => rfl)
    (howed := fun _ _ => rfl) (V := V m) (hmain := hmain m Variants.none) (hA := A_eq m) (hΦ := fun _ _ => rfl)

/-- THE FRAME: the argument arrays, none of them a window's array and none written by a host operation, end as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩) (run_main m ρ)

end Cert.Kernel.Body

end
-- ==== Proof.KernelIdealBody.lean ====
/-
  The frame of `KernelIdeal`, generic in the float instance.

  The one pallas_call computes an outer product block by block on a 5 × 10 grid: at a point it loads the whole
  staging buffer of a [2048, 256] block of rows of the left matrix and the whole staging buffer of a [256, 1024]
  block of columns of the right matrix, multiplies them into a zero accumulator, and stores the [2048, 1024] product
  over the whole staging buffer of the result's block. 10000 is not a multiple of 2048 or of 1024, so the last
  block on each axis overhangs its array, and the rows (columns) of a staging buffer past the array's end hold
  words nothing names.

  For the frame nothing needs to be known of what the buffers hold: the body's loads and its store are whole-buffer
  accesses, which are memory-safe at any contents. So the proof data here forget all three windows: each staging
  buffer is handed to the body at arbitrary contents and taken back at arbitrary contents. The argument arrays are
  no window's array (the windows stage results of host operations), so they end as the region found them, which is
  as launched.
-/
import proofs.«111913_j19567871001158_2_alg».proof.Proof.Gen.KernelIdeal.Frame
import proofs.«111913_j19567871001158_2_alg».proof.Proof.Gen.KernelIdeal.Skeleton
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-! ## The body's triple -/

/-- The zero offsets, as the printed accesses spell them. -/
theorem zero_offsets : (![0, 0] : Fin 2 → Nat) = fun _ => 0 := funext fun a => by fin_cases a <;> rfl

/-- The whole-buffer rectangle of the result's staging buffer. -/
abbrev wholeOut : Rect S2048x1024 := Rect.unit (s := S2048x1024) ![0, 0] S2048x1024.size inb_S2048x1024_S2048x1024_0_0

/-- The body on whole staging memrefs: the two operand buffers at read contents `x0`, `x1` and the result's at
    anything run to the operand buffers as they were and the result's buffer at the product payload of `x0` and `x1`
    (two whole loads, a dead whole load of the result's buffer, one whole store). -/
theorem sound_kernel (c : Dev nD) (E : Set ℕ) (i : grid0.Coords)
    (arg2 : Memref sig .tc .vmem S2048x256 .bf16) (harg2 : arg2.IsWhole)
    (arg3 : Memref sig .tc .vmem S256x1024 .bf16) (harg3 : arg3.IsWhole)
    (arg4 : Memref sig .tc .vmem S2048x1024 .f32) (harg4 : arg4.IsWhole)
    (x0 : Vec F S2048x256 .bf16) (x1 : Vec F S256x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (k0_pay1 x0 x1)) -∗ K ⟨⟩))
      ⊢ wp frame (wpE (defs₀ (F := F)) Variants.none c none) E (cc0__outer_product_kernel i arg2 harg2 arg3 harg3 arg4 harg4) K := by
  simp only [cc0__outer_product_kernel_eq_skeleton]; unfold cc0__outer_product_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  -- the one whole store covers the buffer, so what it left reads as its payload; the whole loads read the contents
  refine (View.read_writes_eq_canon _ _ _ (fun y => ⟨_, List.mem_singleton_self _, View.mem_set_unit_zero zero_offsets inb_S2048x1024_S2048x1024_0_0 y⟩)).trans ?_
  rw [View.canon_unit_zero zero_offsets]
  show k0_pay1 (View.ld (arg2.view.read (Elt F) f0) (Rect.unit (s := S2048x256) ![0, 0] S2048x256.size inb_S2048x256_S2048x256_0_0))
      (View.ld (arg3.view.read (Elt F) f1) (Rect.unit (s := S256x1024) ![0, 0] S256x1024.size inb_S256x1024_S256x1024_0_0)) = _
  rw [View.ld_unit_zero zero_offsets, View.ld_unit_zero zero_offsets]

/-! ## The proof data, every window forgotten -/

variable (m : (ℓ : Loc nD τ sig) → Buf (Elt F) ℓ) (ρ : Dev nD → PrngReg)

/-- The proof data of the one pipeline on core `c`: the arrays as the region finds them; what the body leaves is
    not named (every window is forgotten below); the class's invariant; nothing owed; full shares. -/
def dats (_ : Fin 1) (c : Dev nD) : Dat τ (Elt F) Unit ℕ (UR sig nD τ) ℕ cfg0 c where
  A w := V m c (Pipeline.arrRef spec0 w)
  after w t := Pipeline.Dat.unnamed w t
  Φ _ := Pipeline.ΦA spec0 c
  q _ := fullShare
  owed _ := 0

theorem A_eq (c : Dev nD) (w : Fin cfg0.W) : (dats m 0 c).A w = V m c (Pipeline.arrRef spec0 w) := by
  dsimp only [dats]

/-- Every window forgotten. -/
abbrev allForgotten : Fin cfg0.W → Bool := fun _ => true

/-- What the body is called with at point `t`: the invariant, what the core owes, and each window's current
    staging buffer at some contents; -/
def bodyPre (c : Dev nD) (t : Fin cfg0.N) : sProp 𝕄 :=
  iprop((dats m 0 c).Φ t.castSucc ∗ (dats m 0 c).owesAt () t.castSucc
    ∗ (∃ X, owns (c : Thread nD τ) (st0_0 t) fullShare X)
    ∗ (∃ X, owns (c : Thread nD τ) (st0_1 t) fullShare X)
    ∗ (∃ X, owns (c : Thread nD τ) (st0_2 t) fullShare X))

/-- and what it returns: the same. -/
def bodyPost (c : Dev nD) (t : Fin cfg0.N) : sProp 𝕄 :=
  iprop((dats m 0 c).Φ t.succ ∗ (dats m 0 c).owesAt () t.succ
    ∗ (∃ X, owns (c : Thread nD τ) (st0_0 t) fullShare X)
    ∗ (∃ X, owns (c : Thread nD τ) (st0_1 t) fullShare X)
    ∗ (∃ X, owns (c : Thread nD τ) (st0_2 t) fullShare X))

/-- The body at any point, from buffers at any contents to buffers at some contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, Ho, ⟨%X0, H0⟩, ⟨%X1, H1⟩, ⟨%X2, H2⟩⟩
  iapply (sound_kernel c Set.univ (grid0.coords t) _ _ _ _ _ _ X0 X1 _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexists _; iexact H0
  isplitl [H1]; · iexists _; iexact H1
  iexists _; iexact H2

/-- The library's body obligation with every window forgotten. -/
theorem body_obligation (c : Dev nD) :
    BodyObligationLoose (dats (F := F) m 0 c) (defs₀ (F := F)) Variants.none () Set.univ allForgotten := fun t => by
  rw [bigSep_W0]
  exact sound_body m c t

/-! ## The run and the frame -/

set_option backward.isDefEq.respectTransparency.types false in
/-- Every weakly fair execution of @main terminates, nothing faulting, and every unscoped buffer that is no window's
    array ends as the region found it. -/
theorem run_main : θ_run defs (onTc (τ := τ) (main (F := F))) (s₀ m ρ)
    (RDat.FramePost cfg0 (fun c => (dats m 0 c).toRForget allForgotten) (V m)) :=
  RDat.θ_run_frame cfgs (0 : Fin 1) launch0 defs₀ Variants.none (fun c => (dats m 0 c).toRForget allForgotten) m ρ main
    (hbody := fun c => (body_obligation m c).toRForget) (hshare := fun c => ((dats m 0 c).toRForget allForgotten).share_full fun _ => rfl)
    (howed := fun _ _ => rfl) (V := V m) (hmain := hmain m Variants.none) (hA := A_eq m) (hΦ := fun _ _ => rfl)

/-- THE FRAME: the argument arrays, none of them a window's array and none written by a host operation, end as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩) (run_main m ρ)

end Cert.KernelIdeal.Body

end
-- ==== Proof.KernelIdealExact.lean ====
/-
  The idealized kernel's run with every staging buffer's contents NAMED, at the extended reals.

  At a grid point the pipeline hands the body the two operand buffers just as a fetch fills them: the array's block on
  the rows (columns) inside the array and, past the array's end, words nothing names. At the extended reals the matrix
  product into a zero accumulator is, entry by entry, the plain sum over the contraction index of the products of the
  left operand's row and the right operand's column; so an entry of the product whose row and column lie inside the
  arrays does not depend on the unnamed words, and the part of the result's buffer that the write-back moves — the
  entries inside the result array — is the same whatever they are. That is all the loose body obligation asks.
-/
import proofs.«111913_j19567871001158_2_alg».proof.Proof.KernelIdealBody
import Idealize.ShloMosaic.PureOps.Ideal.Laws
import Idealize.ShloMosaic.Lib.ValueIdx

set_option maxRecDepth 16384

noncomputable section

namespace Cert.KernelIdeal.Exact

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The cuts, decided over the grid -/

/-- The part of a block that lies inside its array, at every grid point: the left operand's block and the result's
    block are cut alike along the rows, the right operand's and the result's alike along the columns, and the
    contraction axis (all 256 of it) is never cut. -/
theorem cuts : ∀ t : Fin cfg0.N, win0_0.xsize (grid0.coords t) (0 : Fin 2) = win0_2.xsize (grid0.coords t) (0 : Fin 2)
    ∧ win0_0.xsize (grid0.coords t) (1 : Fin 2) = 256
    ∧ win0_1.xsize (grid0.coords t) (0 : Fin 2) = 256
    ∧ win0_1.xsize (grid0.coords t) (1 : Fin 2) = win0_2.xsize (grid0.coords t) (1 : Fin 2) :=
  (by decide +kernel : ∀ t : Fin grid0.N, _)

/-! ## The proof data -/

/-- What the left operand's staging buffer holds after (and before) the body at point `t`, on the rows inside the
    array: the array's block; elsewhere a filler nothing reads. -/
def lhsAt (c : Dev nD) (t : Fin cfg0.N) : S2048x256.Idx → Elt Ideal .bf16 :=
  win0_0.fill (grid0.coords t) (Pipeline.Dat.unnamed (cfg := cfg0) (Val := Elt Ideal) 0 t) (iblk m c 0 t)
/-- The right operand's likewise, on the columns inside the array. -/
def rhsAt (c : Dev nD) (t : Fin cfg0.N) : S256x1024.Idx → Elt Ideal .bf16 :=
  win0_1.fill (grid0.coords t) (Pipeline.Dat.unnamed (cfg := cfg0) (Val := Elt Ideal) 1 t) (iblk m c 1 t)

/-- The proof data of the one pipeline on core `c`: the arrays as the region finds them; after the body each operand
    buffer at its block filled out, the result's at the product payload of the two. -/
def dats (_ : Fin 1) (c : Dev nD) : Dat τ (Elt Ideal) Unit ℕ (UR sig nD τ) ℕ cfg0 c where
  A w := V m c (Pipeline.arrRef spec0 w)
  after w t := match w with
    | ⟨0, _⟩ => lhsAt m c t
    | ⟨1, _⟩ => rhsAt m c t
    | ⟨2, _⟩ => k0_pay1 (lhsAt m c t) (rhsAt m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = lhsAt m c t := by dsimp only [dats]
theorem after1 (c : Dev nD) (t : Fin cfg0.N) : (dats m 0 c).after 1 t = rhsAt m c t := by dsimp only [dats]
theorem after2 (c : Dev nD) (t : Fin cfg0.N) : (dats m 0 c).after 2 t = k0_pay1 (lhsAt m c t) (rhsAt m c t) := by dsimp only [dats]

/-- Each operand's buffer, fetched at the point or not, holds its block on the part inside the array and whatever the
    overwrite before the fetch left elsewhere. -/
theorem before0 (c : Dev nD) (t : Fin cfg0.N) (d) :
    (dats m 0 c).before 0 t d = win0_0.fill (grid0.coords t) d (iblk m c 0 t) := by
  refine ((dats m 0 c).before_in_eq_fetched 0 rfl (fun _ => rfl) (fun t t' h => ?_) (fun t => ?_) t d).trans ?_
  · funext a
    show Pipeline.Clip.of (win0_0.index t a) _ _ = Pipeline.Clip.of (win0_0.index t' a) _ _
    rw [show win0_0.index t a = win0_0.index t' a from congrFun h a]
  · rw [after0]; unfold lhsAt Dat.blockOf iblk; rw [A_eq]; exact win0_0.cut_fill _ _ _
  · unfold Dat.fetched Dat.blockOf iblk; rw [A_eq]

theorem before1 (c : Dev nD) (t : Fin cfg0.N) (d) :
    (dats m 0 c).before 1 t d = win0_1.fill (grid0.coords t) d (iblk m c 1 t) := by
  refine ((dats m 0 c).before_in_eq_fetched 1 rfl (fun _ => rfl) (fun t t' h => ?_) (fun t => ?_) t d).trans ?_
  · funext a
    show Pipeline.Clip.of (win0_1.index t a) _ _ = Pipeline.Clip.of (win0_1.index t' a) _ _
    rw [show win0_1.index t a = win0_1.index t' a from congrFun h a]
  · rw [after1]; unfold rhsAt Dat.blockOf iblk; rw [A_eq]; exact win0_1.cut_fill _ _ _
  · unfold Dat.fetched Dat.blockOf iblk; rw [A_eq]

/-! ## An entry of the product inside the result array does not read the unnamed words -/

/-- The left operand's index of entry `j` at contraction position `q`: row `j 0`, -/
theorem lhs_row (j : S2048x1024.Idx) (q : dot_S2048x256_S256x1024_S2048x1024_1_0_0_1_n_n.contr.Idx) :
    (dot_S2048x256_S256x1024_S2048x1024_1_0_0_1_n_n.lhsIdx j q 0).val = (j 0).val := by
  unfold DotDims.lhsIdx
  rw [dif_neg (show ¬(0 : Fin S2048x256.rank) ∈ dot_S2048x256_S256x1024_S2048x1024_1_0_0_1_n_n.lhsBatch by decide),
    dif_pos (show (0 : Fin S2048x256.rank) ∈ dot_S2048x256_S256x1024_S2048x1024_1_0_0_1_n_n.lhsNonContracting by decide)]
  rfl
/-- lane `q`; -/
theorem lhs_lane (j : S2048x1024.Idx) (q : dot_S2048x256_S256x1024_S2048x1024_1_0_0_1_n_n.contr.Idx) :
    (dot_S2048x256_S256x1024_S2048x1024_1_0_0_1_n_n.lhsIdx j q 1).val = (q ⟨0, by decide⟩).val :=
  dot_S2048x256_S256x1024_S2048x1024_1_0_0_1_n_n.lhsIdx_val_of_single rfl j q
/-- the right operand's: row `q`, -/
theorem rhs_row (j : S2048x1024.Idx) (q : dot_S2048x256_S256x1024_S2048x1024_1_0_0_1_n_n.contr.Idx) :
    (dot_S2048x256_S256x1024_S2048x1024_1_0_0_1_n_n.rhsIdx j q 0).val = (q ⟨0, by decide⟩).val :=
  dot_S2048x256_S256x1024_S2048x1024_1_0_0_1_n_n.rhsIdx_val_of_single rfl j q
/-- column `j 1`. -/
theorem rhs_col (j : S2048x1024.Idx) (q : dot_S2048x256_S256x1024_S2048x1024_1_0_0_1_n_n.contr.Idx) :
    (dot_S2048x256_S256x1024_S2048x1024_1_0_0_1_n_n.rhsIdx j q 1).val = (j 1).val := by
  unfold DotDims.rhsIdx
  rw [dif_neg (show ¬(1 : Fin S256x1024.rank) ∈ dot_S2048x256_S256x1024_S2048x1024_1_0_0_1_n_n.rhsBatch by decide),
    dif_pos (show (1 : Fin S256x1024.rank) ∈ dot_S2048x256_S256x1024_S2048x1024_1_0_0_1_n_n.rhsNonContracting by decide)]
  rfl

/-- The payload at an entry: the sum over the contraction index of the products of the operands there. -/
theorem pay_apply (X0 : S2048x256.Idx → Elt Ideal .bf16) (X1 : S256x1024.Idx → Elt Ideal .bf16) (j : S2048x1024.Idx) :
    k0_pay1 (F := Ideal) X0 X1 j = ∑ q : dot_S2048x256_S256x1024_S2048x1024_1_0_0_1_n_n.contr.Idx,
      X0 (dot_S2048x256_S256x1024_S2048x1024_1_0_0_1_n_n.lhsIdx j q) * X1 (dot_S2048x256_S256x1024_S2048x1024_1_0_0_1_n_n.rhsIdx j q) := by
  unfold k0_pay1
  simp only [shapeCast_self, matmul]
  exact Ideal.matmul_constant_zero_apply _ _ _ _ j

/-- Two pairs of operand contents that agree on the parts inside the arrays give products that agree on the part
    inside the result array. -/
theorem pay_cut (t : Fin cfg0.N) (X0 X0' : S2048x256.Idx → Elt Ideal .bf16) (X1 X1' : S256x1024.Idx → Elt Ideal .bf16)
    (h0 : ∀ p : S2048x256.Idx, win0_0.moved (grid0.coords t) p = true → X0 p = X0' p)
    (h1 : ∀ p : S256x1024.Idx, win0_1.moved (grid0.coords t) p = true → X1 p = X1' p) :
    win0_2.cut (grid0.coords t) (k0_pay1 (F := Ideal) X0 X1) = win0_2.cut (grid0.coords t) (k0_pay1 (F := Ideal) X0' X1') := by
  funext y
  show k0_pay1 (F := Ideal) X0 X1 (win0_2.xinj (grid0.coords t) y) = k0_pay1 (F := Ideal) X0' X1' (win0_2.xinj (grid0.coords t) y)
  rw [pay_apply, pay_apply]
  obtain ⟨c0, c1, c2, c3⟩ := cuts t
  refine Finset.sum_congr rfl fun q _ => ?_
  have hq : (q ⟨0, by decide⟩).val < 256 := (q ⟨0, by decide⟩).isLt
  rw [h0 _ ((win0_0.moved_iff _ _).mpr fun a => ?_), h1 _ ((win0_1.moved_iff _ _).mpr fun a => ?_)]
  · match a with
    | ⟨0, _⟩ =>
      show (dot_S2048x256_S256x1024_S2048x1024_1_0_0_1_n_n.rhsIdx (win0_2.xinj (grid0.coords t) y) q 0).val < win0_1.xsize (grid0.coords t) (0 : Fin 2)
      rw [rhs_row, c2]; exact hq
    | ⟨1, _⟩ =>
      show (dot_S2048x256_S256x1024_S2048x1024_1_0_0_1_n_n.rhsIdx (win0_2.xinj (grid0.coords t) y) q 1).val < win0_1.xsize (grid0.coords t) (1 : Fin 2)
      rw [rhs_col, c3]; exact (y 1).isLt
  · match a with
    | ⟨0, _⟩ =>
      show (dot_S2048x256_S256x1024_S2048x1024_1_0_0_1_n_n.lhsIdx (win0_2.xinj (grid0.coords t) y) q 0).val < win0_0.xsize (grid0.coords t) (0 : Fin 2)
      rw [lhs_row, c0]; exact (y 0).isLt
    | ⟨1, _⟩ =>
      show (dot_S2048x256_S256x1024_S2048x1024_1_0_0_1_n_n.lhsIdx (win0_2.xinj (grid0.coords t) y) q 1).val < win0_0.xsize (grid0.coords t) (1 : Fin 2)
      rw [lhs_lane, c1]; exact hq

/-! ## The body obligation -/

/-- A filled block agrees with any other filling of the same block on the part the transfer moves. -/
theorem fill_moved {G : Pipeline.Grid} (w : Window sig G) {α : Type} (i : G.Coords) (d d' : w.block.Idx → α) (g : (w.xblock i).Idx → α)
    (p : w.block.Idx) (h : w.moved i p = true) : w.fill i d g p = w.fill i d' g p := by
  unfold Window.fill; rw [dif_pos h, dif_pos h]

/-- What the body is called with at point `t`; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns: each buffer at contents that, on the part its transfers move, are the proof data's. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2]
  iintro ⟨HΦ, Ho, ⟨%d0, H0⟩, ⟨%d1, H1⟩, ⟨%d2, H2⟩⟩
  iapply (Cert.KernelIdeal.Body.sound_kernel (F := Ideal) c Set.univ (grid0.coords t) _ _ _ _ _ _
    (win0_0.fill (grid0.coords t) d0 (iblk m c 0 t)) (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    rw [show win0_0.cut (grid0.coords t) (lhsAt m c t) = iblk m c 0 t from win0_0.cut_fill _ _ _]
    iexact H0
  isplitl [H1]
  · iexists d1
    rw [show win0_1.cut (grid0.coords t) (rhsAt m c t) = iblk m c 1 t from win0_1.cut_fill _ _ _]
    iexact H1
  · iexists k0_pay1 (F := Ideal) (win0_0.fill (grid0.coords t) d0 (iblk m c 0 t)) (win0_1.fill (grid0.coords t) d1 (iblk m c 1 t))
    rw [win0_2.fill_congr_cut (grid0.coords t) (pay_cut t (win0_0.fill (grid0.coords t) d0 (iblk m c 0 t)) (lhsAt m c t)
      (win0_1.fill (grid0.coords t) d1 (iblk m c 1 t)) (rhsAt m c t)
      (fun p h => fill_moved win0_0 (grid0.coords t) d0 _ (iblk m c 0 t) p h)
      (fun p h => fill_moved win0_1 (grid0.coords t) d1 _ (iblk m c 1 t) p h))]
    iexact H2

/-- The library's body obligation, at every point. -/
theorem body_obligation (c : Dev nD) :
    BodyObligationLoose (dats m 0 c) (defs₀ (F := Ideal)) Variants.none () Set.univ := fun t => by
  rw [bigSep_W0, bigSep_W0]
  exact sound_body m c t

/-! ## The run -/

set_option backward.isDefEq.respectTransparency.types false in
/-- Every weakly fair execution of @main terminates, nothing faulting, every array of the pipeline ending at what the
    library computes from the proof data and every other unscoped buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

end Cert.KernelIdeal.Exact

end
-- ==== Proof.OuterSpec.lean ====
/-
  The specification of the second result: the Gram-style product of a [10000, 256] matrix `A` with a
  [256, 10000] matrix `B` over the extended reals, entry (r, s) being the sum over the 256 contraction positions
  k of A(r, k) · B(k, s). (In the programs B is the transpose of A; the specification does not need to know.)
-/
import Idealize.ShloMosaic.PureOps.Ideal
import Idealize.ShloMosaic.Lib.ValueIdx

noncomputable section

namespace Cert.OuterSpec

open Idealize.ShloMosaic

/-- The left factor's index for entry `i` at contraction position `k`: row `i 0`, lane `k`. -/
abbrev lix (i : (⟨2, ![10000, 10000]⟩ : Shape).Idx) (k : Fin 256) : (⟨2, ![10000, 256]⟩ : Shape).Idx := ValueIdx.ix2 (i 0) k
/-- The right factor's: row `k`, column `i 1`. -/
abbrev rix (i : (⟨2, ![10000, 10000]⟩ : Shape).Idx) (k : Fin 256) : (⟨2, ![256, 10000]⟩ : Shape).Idx := ValueIdx.ix2 k (i 1)

/-- The product, entry by entry. -/
def outer (A : (⟨2, ![10000, 256]⟩ : Shape).Idx → EReal) (B : (⟨2, ![256, 10000]⟩ : Shape).Idx → EReal) :
    (⟨2, ![10000, 10000]⟩ : Shape).Idx → EReal :=
  fun i => ∑ k : Fin 256, A (lix i k) * B (rix i k)

theorem outer_apply (A : (⟨2, ![10000, 256]⟩ : Shape).Idx → EReal) (B : (⟨2, ![256, 10000]⟩ : Shape).Idx → EReal)
    (i : (⟨2, ![10000, 10000]⟩ : Shape).Idx) : outer A B i = ∑ k : Fin 256, A (lix i k) * B (rix i k) := rfl

end Cert.OuterSpec

end
-- ==== Proof.KernelIdealValue.lean ====
/-
  From blocks to the array: what the idealized kernel's result array holds after the run.

  Grid point t = (r, s) (5 × 10 of them) multiplies rows 2048·r … of the left matrix by columns 1024·s … of the right
  matrix and writes the product back onto the block of the result array at (2048·r, 1024·s), cut at the array's end
  (10000 rows, 10000 columns). On the part written back, the entry at block coordinates (p, u) is the sum over the 256
  contraction positions k of left(2048·r + p, k) · right(k, 1024·s + u): the entry (2048·r + p, 1024·s + u) of ONE
  whole-array function of the two matrices, `OuterSpec.outer`. Every entry of the result array lies in the block of
  the point (row / 2048, column / 1024), so the array ends holding that function.
-/
import proofs.«111913_j19567871001158_2_alg».proof.Proof.KernelIdealExact
import proofs.«111913_j19567871001158_2_alg».proof.Proof.OuterSpec

set_option maxRecDepth 16384

noncomputable section

namespace Cert.KernelIdeal.OutValue

open Cert.KernelIdeal Cert.KernelIdeal.Gen Cert.KernelIdeal.Exact Cert.OuterSpec
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

/-! ## The index maps, decided over the grid -/

/-- The left operand's block moves with the result's along the rows and stays at lane block 0; the right operand's
    stays at row block 0 and moves with the result's along the columns. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2) :=
  (by decide +kernel : ∀ t : Fin grid0.N, _)

/-- Where the result's block at a point ends: at the next block's start or at the array's end. -/
theorem ext_facts : ∀ t : Fin cfg0.N,
    win0_2.index t (0 : Fin 2) * 2048 + win0_2.xsize (grid0.coords t) (0 : Fin 2) = min 10000 ((win0_2.index t (0 : Fin 2) + 1) * 2048)
    ∧ win0_2.index t (1 : Fin 2) * 1024 + win0_2.xsize (grid0.coords t) (1 : Fin 2) = min 10000 ((win0_2.index t (1 : Fin 2) + 1) * 1024) :=
  (by decide +kernel : ∀ t : Fin grid0.N, _)

/-- Every block position of the 5 × 10 box is some point's. -/
theorem idx_onto : ∀ (q0 : Fin 5) (q1 : Fin 10), ∃ t : Fin cfg0.N, win0_2.index t = ![q0.val, q1.val] :=
  (by decide +kernel : ∀ (q0 : Fin 5) (q1 : Fin 10), ∃ t : Fin grid0.N, win0_2.index t = ![q0.val, q1.val])

/-! ## The operand buffers read at an index inside the array -/

/-- The left operand's buffer at a position `p` inside the array's part of the block is the array at the block's
    offset plus `p`. -/
theorem lhsAt_apply (c : Dev nD) (t : Fin cfg0.N) (p : S2048x256.Idx) (q : S10000x256.Idx)
    (hp : ∀ a, (p a).val < win0_0.xsize (grid0.coords t) a)
    (hq : ∀ a, (q a).val = win0_0.index t a * S2048x256.size a + (p a).val) :
    lhsAt m c t p = V m c main_v122 q := by
  unfold lhsAt Window.fill
  rw [dif_pos ((win0_0.moved_iff _ _).mpr hp)]
  show V m c main_v122 (((cfg0.win 0).blk t).view.emb _) = V m c main_v122 q
  congr 1
  funext a; apply Fin.ext
  rw [hq a]
  match a with
  | ⟨0, _⟩ => show win0_0.index t (0 : Fin 2) * 2048 + 1 * (p 0).val = win0_0.index t (0 : Fin 2) * 2048 + (p 0).val; omega
  | ⟨1, _⟩ => show win0_0.index t (1 : Fin 2) * 256 + 1 * (p 1).val = win0_0.index t (1 : Fin 2) * 256 + (p 1).val; omega

/-- The right operand's likewise. -/
theorem rhsAt_apply (c : Dev nD) (t : Fin cfg0.N) (p : S256x1024.Idx) (q : S256x10000.Idx)
    (hp : ∀ a, (p a).val < win0_1.xsize (grid0.coords t) a)
    (hq : ∀ a, (q a).val = win0_1.index t a * S256x1024.size a + (p a).val) :
    rhsAt m c t p = V m c main_v123 q := by
  unfold rhsAt Window.fill
  rw [dif_pos ((win0_1.moved_iff _ _).mpr hp)]
  show V m c main_v123 (((cfg0.win 1).blk t).view.emb _) = V m c main_v123 q
  congr 1
  funext a; apply Fin.ext
  rw [hq a]
  match a with
  | ⟨0, _⟩ => show win0_1.index t (0 : Fin 2) * 256 + 1 * (p 0).val = win0_1.index t (0 : Fin 2) * 256 + (p 0).val; omega
  | ⟨1, _⟩ => show win0_1.index t (1 : Fin 2) * 1024 + 1 * (p 1).val = win0_1.index t (1 : Fin 2) * 1024 + (p 1).val; omega

/-! ## What a point writes back -/

/-- WHAT POINT `t` WRITES BACK is block `t` of the product of the two operand arrays as the region finds them. -/
theorem flushed_eq (c : Dev nD) (t : Fin cfg0.N) :
    (dats m 0 c).flushed 2 t = ((cfg0.win 2).blk t).view.read (Elt Ideal) (outer (V m c main_v122) (V m c main_v123)) := by
  show (cfg0.win 2).cut (grid0.coords t) ((dats m 0 c).after 2 t) = _
  rw [after2]
  funext y
  show k0_pay1 (F := Ideal) (lhsAt m c t) (rhsAt m c t) (win0_2.xinj (grid0.coords t) y)
    = outer (V m c main_v122) (V m c main_v123) (((cfg0.win 2).blk t).view.emb y)
  obtain ⟨e0, e1, e2, e3⟩ := idx_facts t
  obtain ⟨c0, c1, c2, c3⟩ := cuts t
  rw [pay_apply, outer_apply, ← Equiv.sum_comp (ValueIdx.contrEquiv1 dot_S2048x256_S256x1024_S2048x1024_1_0_0_1_n_n 256 rfl rfl).symm]
  refine Finset.sum_congr rfl fun k _ => ?_
  have hk := ValueIdx.contrEquiv1_symm_val dot_S2048x256_S256x1024_S2048x1024_1_0_0_1_n_n 256 rfl rfl k
  have hk' : k.val < 256 := k.isLt
  have hy0 : (y 0).val < win0_2.xsize (grid0.coords t) (0 : Fin 2) := (y 0).isLt
  have hy1 : (y 1).val < win0_2.xsize (grid0.coords t) (1 : Fin 2) := (y 1).isLt
  rw [lhsAt_apply m c t _ (lix (((cfg0.win 2).blk t).view.emb y) k) (fun a => ?_) (fun a => ?_),
    rhsAt_apply m c t _ (rix (((cfg0.win 2).blk t).view.emb y) k) (fun a => ?_) (fun a => ?_)]
  · match a with
    | ⟨0, _⟩ =>
      show (dot_S2048x256_S256x1024_S2048x1024_1_0_0_1_n_n.rhsIdx (win0_2.xinj (grid0.coords t) y) ((ValueIdx.contrEquiv1 dot_S2048x256_S256x1024_S2048x1024_1_0_0_1_n_n 256 rfl rfl).symm k) 0).val < win0_1.xsize (grid0.coords t) (0 : Fin 2)
      rw [rhs_row, c2, hk]; exact hk'
    | ⟨1, _⟩ =>
      show (dot_S2048x256_S256x1024_S2048x1024_1_0_0_1_n_n.rhsIdx (win0_2.xinj (grid0.coords t) y) ((ValueIdx.contrEquiv1 dot_S2048x256_S256x1024_S2048x1024_1_0_0_1_n_n 256 rfl rfl).symm k) 1).val < win0_1.xsize (grid0.coords t) (1 : Fin 2)
      rw [rhs_col, c3]; exact hy1
  · match a with
    | ⟨0, _⟩ =>
      show k.val = win0_1.index t (0 : Fin 2) * 256 + (dot_S2048x256_S256x1024_S2048x1024_1_0_0_1_n_n.rhsIdx (win0_2.xinj (grid0.coords t) y) ((ValueIdx.contrEquiv1 dot_S2048x256_S256x1024_S2048x1024_1_0_0_1_n_n 256 rfl rfl).symm k) 0).val
      rw [rhs_row, hk, e2]; omega
    | ⟨1, _⟩ =>
      show win0_2.index t (1 : Fin 2) * 1024 + 1 * (y 1).val = win0_1.index t (1 : Fin 2) * 1024 + (dot_S2048x256_S256x1024_S2048x1024_1_0_0_1_n_n.rhsIdx (win0_2.xinj (grid0.coords t) y) ((ValueIdx.contrEquiv1 dot_S2048x256_S256x1024_S2048x1024_1_0_0_1_n_n 256 rfl rfl).symm k) 1).val
      rw [rhs_col, e3]; show _ = _ + (y 1).val; omega
  · match a with
    | ⟨0, _⟩ =>
      show (dot_S2048x256_S256x1024_S2048x1024_1_0_0_1_n_n.lhsIdx (win0_2.xinj (grid0.coords t) y) ((ValueIdx.contrEquiv1 dot_S2048x256_S256x1024_S2048x1024_1_0_0_1_n_n 256 rfl rfl).symm k) 0).val < win0_0.xsize (grid0.coords t) (0 : Fin 2)
      rw [lhs_row, c0]; exact hy0
    | ⟨1, _⟩ =>
      show (dot_S2048x256_S256x1024_S2048x1024_1_0_0_1_n_n.lhsIdx (win0_2.xinj (grid0.coords t) y) ((ValueIdx.contrEquiv1 dot_S2048x256_S256x1024_S2048x1024_1_0_0_1_n_n 256 rfl rfl).symm k) 1).val < win0_0.xsize (grid0.coords t) (1 : Fin 2)
      rw [lhs_lane, c1, hk]; exact hk'
  · match a with
    | ⟨0, _⟩ =>
      show win0_2.index t (0 : Fin 2) * 2048 + 1 * (y 0).val = win0_0.index t (0 : Fin 2) * 2048 + (dot_S2048x256_S256x1024_S2048x1024_1_0_0_1_n_n.lhsIdx (win0_2.xinj (grid0.coords t) y) ((ValueIdx.contrEquiv1 dot_S2048x256_S256x1024_S2048x1024_1_0_0_1_n_n 256 rfl rfl).symm k) 0).val
      rw [lhs_row, e0]; show _ = _ + (y 0).val; omega
    | ⟨1, _⟩ =>
      show k.val = win0_0.index t (1 : Fin 2) * 256 + (dot_S2048x256_S256x1024_S2048x1024_1_0_0_1_n_n.lhsIdx (win0_2.xinj (grid0.coords t) y) ((ValueIdx.contrEquiv1 dot_S2048x256_S256x1024_S2048x1024_1_0_0_1_n_n 256 rfl rfl).symm k) 1).val
      rw [lhs_lane, hk, e1]; omega

/-! ## The cover -/

/-- An index of the result array is in point `t`'s block iff each coordinate is in the block's range, cut at the
    array's end, on its axis. -/
theorem mem_blk (t : Fin cfg0.N) (i : S10000x10000.Idx) :
    i ∈ ((cfg0.win 2).blk t).view.set ↔ ∀ a : Fin 2, win0_2.index t a * S2048x1024.size a ≤ (i a).val
      ∧ (i a).val < win0_2.index t a * S2048x1024.size a + win0_2.xsize (grid0.coords t) a := by
  show i ∈ ((View.whole main_v124).slice (win0_2.rect t)).set ↔ _
  rw [View.set_slice_whole, Rect.mem_set_unit]
  exact Iff.rfl

/-- Every entry of the result array is in the block of the point at (row / 2048, column / 1024). -/
theorem cover (i : S10000x10000.Idx) :
    ∃ t : Fin cfg0.N, (cfg0.win 2).flush t = true ∧ i ∈ ((cfg0.win 2).blk t).view.set := by
  have hi0 : (i 0).val < 10000 := (i 0).isLt
  have hi1 : (i 1).val < 10000 := (i 1).isLt
  obtain ⟨t, ht⟩ := idx_onto ⟨(i 0).val / 2048, by omega⟩ ⟨(i 1).val / 1024, by omega⟩
  have q0 : win0_2.index t (0 : Fin 2) = (i 0).val / 2048 := congrFun ht 0
  have q1 : win0_2.index t (1 : Fin 2) = (i 1).val / 1024 := congrFun ht 1
  obtain ⟨x0, x1⟩ := ext_facts t
  refine ⟨t, flush0_2 t, (mem_blk t i).mpr fun a => ?_⟩
  match a with
  | ⟨0, _⟩ =>
    show win0_2.index t (0 : Fin 2) * 2048 ≤ (i 0).val ∧ (i 0).val < win0_2.index t (0 : Fin 2) * 2048 + win0_2.xsize (grid0.coords t) (0 : Fin 2)
    omega
  | ⟨1, _⟩ =>
    show win0_2.index t (1 : Fin 2) * 1024 ≤ (i 1).val ∧ (i 1).val < win0_2.index t (1 : Fin 2) * 1024 + win0_2.xsize (grid0.coords t) (1 : Fin 2)
    omega

/-- THE RESULT ARRAY after the run: the product of the two operand arrays as the region finds them. -/
theorem final (c : Dev nD) : (dats m 0 c).arrAt 2 cfg0.N = outer (V m c main_v122) (V m c main_v123) :=
  (dats m 0 c).arrAt_eq_of_cover 2 _ (fun t _ => flushed_eq m c t) cover

/-! ## The run, read -/

/-- The idealized kernel's run re-posted: the first result as the host lines before the region left it, the second the
    product of the two operand buffers those lines wrote, the arguments unchanged. -/
theorem run : θ_run defs (onTc (τ := τ) (main (F := Ideal))) ⟨m, fun _ => 0, ρ⟩ (fun r => ∀ c : Dev nD,
      r.2.mem ((c.tc : Thread nD τ).loc main_v104) = V m c main_v104
      ∧ r.2.mem ((c.tc : Thread nD τ).loc main_v124) = outer (V m c main_v122) (V m c main_v123)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).2 main_v104 (Pipeline.mem_restRefs_of main_v104 (by decide) (by decide)),
      ((h c).1 2).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩) (run_main m ρ)

end Cert.KernelIdeal.OutValue

end
-- ==== Proof.KernelIdealHost.lean ====
/-
  What the host operations before the region leave in the buffers the kernel region reads, and in the first result:
  the same stages of the argument arrays that the reference program computes (the two programs' host lines are the
  same operations on the same operands, line for line, up to the last three).
-/
import proofs.«111913_j19567871001158_2_alg».proof.Proof.Gen.KernelIdeal.Frame
import proofs.«111913_j19567871001158_2_alg».proof.Proof.RefRead
import Idealize.ShloMosaic.Lib.StableHlo.Run

noncomputable section

namespace Cert.KernelIdeal.HostSide

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

set_option maxRecDepth 8192 in
set_option maxHeartbeats 40000000 in
/-- The first result's buffer, as the region finds it (no later line writes it), holds the reference's stage for its
    first result, of the same argument arrays. -/
theorem first_result (c : Dev nD) :
    V m c main_v104 = Cert.ReferenceIdeal.ReadP.val_main_v104 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

set_option maxRecDepth 8192 in
set_option maxHeartbeats 40000000 in
/-- The left operand's array, as the region finds it: the reference's [10000, 256] stage narrowed to bf16. -/
theorem lhs_operand (c : Dev nD) :
    V m c main_v122 = truncf .bf16 (Cert.ReferenceIdeal.ReadP.val_main_v121 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11))) Cert.KernelIdeal.Gen.bitsLt_bf16_f32 := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

set_option maxRecDepth 8192 in
set_option maxHeartbeats 40000000 in
/-- The right operand's: that, transposed. -/
theorem rhs_operand (c : Dev nD) :
    V m c main_v123 = transpose S256x10000 [1, 0] (truncf .bf16 (Cert.ReferenceIdeal.ReadP.val_main_v121 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11))) Cert.KernelIdeal.Gen.bitsLt_bf16_f32)
      Cert.KernelIdeal.Gen.transposes_S10000x256_S256x10000_1_0 := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

end Cert.KernelIdeal.HostSide

end
-- ==== Proof.RefSide.lean ====
/-
  The reference's second result is the specification's product: its last line is a `dot_general` of the [10000, 256]
  stage with that stage's transpose, contracting the 256 lanes, which at the extended reals is entry by entry the sum
  over the contraction position of the products.
-/
import proofs.«111913_j19567871001158_2_alg».proof.Proof.RefRead
import proofs.«111913_j19567871001158_2_alg».proof.Proof.OuterSpec

noncomputable section

namespace Cert.ReferenceIdeal.RefSide

open Cert.ReferenceIdeal Cert.ReferenceIdeal.ReadP Cert.OuterSpec
open Idealize.ShloMosaic Idealize.ShloMosaic.TcCoe Idealize.SL.Sem

/-- The reference's second stage is the product of its [10000, 256] stage and that stage's transpose. -/
theorem second_result (x0 : (⟨S10000x256, .f32⟩ : BufTy).Contents (Elt Ideal)) (x1 : (⟨S2x320000, .i32⟩ : BufTy).Contents (Elt Ideal))
    (x2 : (⟨S256x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x10 : (⟨S64x256, .f32⟩ : BufTy).Contents (Elt Ideal)) (x11 : (⟨S256, .f32⟩ : BufTy).Contents (Elt Ideal)) :
    val_main_v123 (F := Ideal) x0 x1 x2 x3 x4 x5 x10 x11
      = outer (val_main_v121 (F := Ideal) x0 x1 x2 x3 x4 x5 x10 x11) (val_main_v122 (F := Ideal) x0 x1 x2 x3 x4 x5 x10 x11) := by
  funext i
  rw [val_main_v123_apply, outer_apply]
  refine Finset.sum_congr rfl fun k _ => ?_
  have el : lidx_main_v123 i k = lix i k := funext fun a => by
    match a with
    | ⟨0, _⟩ => rfl
    | ⟨1, _⟩ => rfl
  have er : ridx_main_v123 i k = rix i k := funext fun a => by
    match a with
    | ⟨0, _⟩ => rfl
    | ⟨1, _⟩ => rfl
  rw [el, er]

end Cert.ReferenceIdeal.RefSide

end
-- ==== Proof.lean ====
/-
  The proof of `Cert.Claim`: the three frames, `preserves` (the ideal pass rewrote nothing: the conjunct is `True`)
  and the equivalence of the idealized kernel and the idealized reference over the extended reals.

  Both programs compute, by the same host lines on the same arguments, a [10000, 256] first result and a
  [10000, 256] matrix H (a graph-convolution stack: dense products, gathers, scatter-adds, a relu); they differ only
  in how the second result, the [10000, 10000] product H · Hᵀ, is computed. The reference takes one `dot_general` of H
  with its transpose. The kernel narrows H to bf16 (the identity at the extended reals), transposes it, and multiplies
  blocks of 2048 rows by blocks of 1024 columns on a 5 × 10 grid, the last block on each axis overhanging the array.
  At the extended reals a block product is entry by entry the plain sum over the 256 contraction positions, so the
  entries written back inside the array are the reference's, and the words a clipped fetch leaves unnamed past the
  array's end reach only entries that are never written back. No finiteness is used: both sides are the same sums of
  the same products, term by term.
-/
import proofs.«111913_j19567871001158_2_alg».proof.Defs
import proofs.«111913_j19567871001158_2_alg».proof.Proof.Gen.Kernel
import proofs.«111913_j19567871001158_2_alg».proof.Proof.Gen.KernelIdeal
import proofs.«111913_j19567871001158_2_alg».proof.Proof.Gen.ReferenceIdeal
import proofs.«111913_j19567871001158_2_alg».proof.Proof.Gen.Pre_finite_inputs
import proofs.«111913_j19567871001158_2_alg».proof.Proof.KernelBody
import proofs.«111913_j19567871001158_2_alg».proof.Proof.KernelIdealBody
import proofs.«111913_j19567871001158_2_alg».proof.Proof.KernelIdealValue
import proofs.«111913_j19567871001158_2_alg».proof.Proof.KernelIdealHost
import proofs.«111913_j19567871001158_2_alg».proof.Proof.RefSide
import Idealize.ShloMosaic.Adequacy
import Idealize.ShloMosaic.Init

noncomputable section

namespace Cert.Proof

open Idealize.ShloMosaic Idealize.ShloMosaic.TcCoe Idealize.SL.Sem Cert.OuterSpec

/-- The kernel as printed runs and leaves its arguments unchanged. -/
theorem frame_kernel : Cert.frame_Kernel (hKernel := Cert.Kernel.Gen.facts) (hPre_finite_inputs := Cert.Pre_finite_inputs.Gen.facts) :=
  fun m ρ _ => Cert.Kernel.Body.frame (F := Bits) m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Body.frame (F := Ideal) m ρ

/-- The reference's frame is its run with the results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.ValueP.run (F := Ideal) m ρ)

/-- At the extended reals the narrowing to bf16 is the identity. -/
theorem truncf_id {s : Shape} (x : FVec Ideal s .f32) (h : FTy.bf16.bits < FTy.f32.bits) : (truncf .bf16 x h : FVec Ideal s .bf16) = x :=
  funext fun _ => rfl

/-- The two idealized programs, from memories that agree on the arguments, end with equal results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.ReadP.val_main_v104 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => outer (Cert.ReferenceIdeal.ReadP.val_main_v121 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)))
      (Cert.ReferenceIdeal.ReadP.val_main_v122 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))), ?_, ?_⟩
  · refine (θ_run Cert.KernelIdeal.defs _ _).mono (fun r h c => ?_) (Cert.KernelIdeal.OutValue.run m ρ)
    obtain ⟨h1, h2, hrest⟩ := h c
    refine ⟨h1.trans (Cert.KernelIdeal.HostSide.first_result m c), h2.trans ?_, hrest⟩
    rw [Cert.KernelIdeal.HostSide.lhs_operand m c, Cert.KernelIdeal.HostSide.rhs_operand m c, truncf_id]
    rfl
  · refine (θ_run Cert.ReferenceIdeal.defs _ _).mono (fun r h c => ?_) (Cert.ReferenceIdeal.ValueP.run (F := Ideal) m' ρ')
    obtain ⟨h1, h2, hrest⟩ := h c
    obtain ⟨a0, a1, a2, a3, a4, a5, a6, a7, a8, a9, a10, a11⟩ := hagree c
    refine ⟨h1.trans ?_, h2.trans ?_, hrest⟩
    · rw [Cert.ReferenceIdeal.ReadP.val_main_v104_eq, a0, a1, a2, a3, a4, a5, a6, a7, a8, a9]
    · rw [Cert.ReferenceIdeal.ReadP.val_main_v123_eq, Cert.ReferenceIdeal.RefSide.second_result, a0, a1, a2, a3, a4, a5, a10, a11]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
